-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x49152x64 : Shape := ⟨3, ![8, 49152, 64]⟩
abbrev S64x3x64 : Shape := ⟨3, ![64, 3, 64]⟩
abbrev S64 : Shape := ⟨1, ![64]⟩
abbrev S393216 : Shape := ⟨1, ![393216]⟩
abbrev S_ : Shape := ⟨0, ![]⟩

class Facts : Prop where
  bcast_S_S8x49152x64 : S_.BroadcastsInDim S8x49152x64 (![] : Fin 0 → Fin S8x49152x64.rank)
  reducesTo_S8x49152x64_S_d0_1_2 : S8x49152x64.ReducesTo [0, 1, 2] S_
  h_S_ : 0 < S_.numel
  bcast_S_S64x3x64 : S_.BroadcastsInDim S64x3x64 (![] : Fin 0 → Fin S64x3x64.rank)
  reducesTo_S64x3x64_S_d0_1_2 : S64x3x64.ReducesTo [0, 1, 2] S_
  bcast_S_S64 : S_.BroadcastsInDim S64 (![] : Fin 0 → Fin S64.rank)
  reducesTo_S64_S_d0 : S64.ReducesTo [0] S_
  bcast_S_S393216 : S_.BroadcastsInDim S393216 (![] : Fin 0 → Fin S393216.rank)
  reducesTo_S393216_S_d0 : S393216.ReducesTo [0] S_

variable [Facts]

def fn_part1 {F : FTy → Type} [FloatOps F] (main_v13 : IVec S_ 1) (main_v16 : IVec S393216 1) : IVec S_ 1 :=
  let main_c_5 : IVec S_ 1 := constantI S_ 1 1#1
  let main_v17 : IVec S_ 1 := (fun x v => Host.reduce IntOp.andi x v reducesTo_S393216_S_d0 h_S_) main_v16 main_c_5
  let main_v18 : IVec S_ 1 := andi main_v13 main_v17
  main_v18

def fn {F : FTy → Type} [FloatOps F] (main_arg0 : FVec F S8x49152x64 .f32) (main_arg1 : FVec F S64x3x64 .f32) (main_arg2 : FVec F S64 .f32) (main_arg3 : IVec S393216 32) (main_arg4 : IVec S393216 32) (main_arg5 : FVec F S393216 .f32) : IVec S_ 1 :=
  let main_v0 : FVec F S8x49152x64 .f32 := Host.absf main_arg0
  let main_cst : FVec F S_ .f32 := constant S_ .f32 0x7F800000#32
  let main_v1 : FVec F S8x49152x64 .f32 := broadcastInDim S8x49152x64 ![] bcast_S_S8x49152x64 main_cst
  let main_v2 : IVec S8x49152x64 1 := cmpf .olt main_v0 main_v1
  let main_c : IVec S_ 1 := constantI S_ 1 1#1
  let main_v3 : IVec S_ 1 := (fun x v => Host.reduce IntOp.andi x v reducesTo_S8x49152x64_S_d0_1_2 h_S_) main_v2 main_c
  let main_v4 : FVec F S64x3x64 .f32 := Host.absf main_arg1
  let main_cst_0 : FVec F S_ .f32 := constant S_ .f32 0x7F800000#32
  let main_v5 : FVec F S64x3x64 .f32 := broadcastInDim S64x3x64 ![] bcast_S_S64x3x64 main_cst_0
  let main_v6 : IVec S64x3x64 1 := cmpf .olt main_v4 main_v5
  let main_c_1 : IVec S_ 1 := constantI S_ 1 1#1
  let main_v7 : IVec S_ 1 := (fun x v => Host.reduce IntOp.andi x v reducesTo_S64x3x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S393216 .f32 := Host.absf main_arg5
  let main_cst_4 : FVec F S_ .f32 := constant S_ .f32 0x7F800000#32
  let main_v15 : FVec F S393216 .f32 := broadcastInDim S393216 ![] bcast_S_S393216 main_cst_4
  let main_v16 : IVec S393216 1 := cmpf .olt main_v14 main_v15
  fn_part1 (F := F) main_v13 main_v16
-- ==== Kernel.lean ====
abbrev S8x49152x64 : Shape := ⟨3, ![8, 49152, 64]⟩
abbrev S64x3x64 : Shape := ⟨3, ![64, 3, 64]⟩
abbrev S64 : Shape := ⟨1, ![64]⟩
abbrev S393216 : Shape := ⟨1, ![393216]⟩
abbrev S49152x64x8 : Shape := ⟨3, ![49152, 64, 8]⟩
abbrev S49152x512 : Shape := ⟨2, ![49152, 512]⟩
abbrev S393216x1 : Shape := ⟨2, ![393216, 1]⟩
abbrev S_ : Shape := ⟨0, ![]⟩
abbrev S393216x512 : Shape := ⟨2, ![393216, 512]⟩
abbrev S1x49152x512 : Shape := ⟨3, ![1, 49152, 512]⟩
abbrev S3x49152x512 : Shape := ⟨3, ![3, 49152, 512]⟩
abbrev S3x49152x64x8 : Shape := ⟨4, ![3, 49152, 64, 8]⟩
abbrev S8x49152x64x3 : Shape := ⟨4, ![8, 49152, 64, 3]⟩
abbrev S393216x192 : Shape := ⟨2, ![393216, 192]⟩
abbrev S192x64 : Shape := ⟨2, ![192, 64]⟩
abbrev S1x64 : Shape := ⟨2, ![1, 64]⟩
abbrev S393216x64 : Shape := ⟨2, ![393216, 64]⟩
abbrev S8192x192 : Shape := ⟨2, ![8192, 192]⟩
abbrev S8192x64 : Shape := ⟨2, ![8192, 64]⟩

abbrev nBuf : Space → Nat
  | .hbm => 55
  | .vmem => 6
  | .smem => 0
  | _ => 0

abbrev bufTy : (tb : Table) → Fin (tcTables nBuf tb) → BufTy
  | .hbm, ⟨0, _⟩ => ⟨S8x49152x64, .f32⟩
  | .hbm, ⟨1, _⟩ => ⟨S64x3x64, .f32⟩
  | .hbm, ⟨2, _⟩ => ⟨S64, .f32⟩
  | .hbm, ⟨3, _⟩ => ⟨S393216, .i32⟩
  | .hbm, ⟨4, _⟩ => ⟨S393216, .i32⟩
  | .hbm, ⟨5, _⟩ => ⟨S393216, .f32⟩
  | .hbm, ⟨6, _⟩ => ⟨S49152x64x8, .f32⟩
  | .hbm, ⟨7, _⟩ => ⟨S49152x512, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x512, .f32⟩
  | .hbm, ⟨18, _⟩ => ⟨S393216x512, .f32⟩
  | .hbm, ⟨19, _⟩ => ⟨S393216x512, .f32⟩
  | .hbm, ⟨20, _⟩ => ⟨S_, .f32⟩
  | .hbm, ⟨21, _⟩ => ⟨S49152x512, .f32⟩
  | .hbm, ⟨22, _⟩ => ⟨S393216x1, .i32⟩
  | .hbm, ⟨23, _⟩ => ⟨S49152x512, .f32⟩
  | .hbm, ⟨24, _⟩ => ⟨S393216x1, .f32⟩
  | .hbm, ⟨25, _⟩ => ⟨S_, .i32⟩
  | .hbm, ⟨26, _⟩ => ⟨S393216, .i32⟩
  | .hbm, ⟨27, _⟩ => ⟨S393216, .i1⟩
  | .hbm, ⟨28, _⟩ => ⟨S_, .i32⟩
  | .hbm, ⟨29, _⟩ => ⟨S393216, .i32⟩
  | .hbm, ⟨30, _⟩ => ⟨S393216, .i32⟩
  | .hbm, ⟨31, _⟩ => ⟨S393216, .i32⟩
  | .hbm, ⟨32, _⟩ => ⟨S393216x1, .i32⟩
  | .hbm, ⟨33, _⟩ => ⟨S393216x512, .f32⟩
  | .hbm, ⟨34, _⟩ => ⟨S393216x512, .f32⟩
  | .hbm, ⟨35, _⟩ => ⟨S393216x512, .f32⟩
  | .hbm, ⟨36, _⟩ => ⟨S_, .f32⟩
  | .hbm, ⟨37, _⟩ => ⟨S49152x512, .f32⟩
  | .hbm, ⟨38, _⟩ => ⟨S393216x1, .i32⟩
  | .hbm, ⟨39, _⟩ => ⟨S49152x512, .f32⟩
  | .hbm, ⟨40, _⟩ => ⟨S_, .f32⟩
  | .hbm, ⟨41, _⟩ => ⟨S49152x512, .f32⟩
  | .hbm, ⟨42, _⟩ => ⟨S49152x512, .f32⟩
  | .hbm, ⟨43, _⟩ => ⟨S49152x512, .f32⟩
  | .hbm, ⟨44, _⟩ => ⟨S1x49152x512, .f32⟩
  | .hbm, ⟨45, _⟩ => ⟨S1x49152x512, .f32⟩
  | .hbm, ⟨46, _⟩ => ⟨S1x49152x512, .f32⟩
  | .hbm, ⟨47, _⟩ => ⟨S3x49152x512, .f32⟩
  | .hbm, ⟨48, _⟩ => ⟨S3x49152x64x8, .f32⟩
  | .hbm, ⟨49, _⟩ => ⟨S8x49152x64x3, .f32⟩
  | .hbm, ⟨50, _⟩ => ⟨S393216x192, .f32⟩
  | .hbm, ⟨51, _⟩ => ⟨S192x64, .f32⟩
  | .hbm, ⟨52, _⟩ => ⟨S1x64, .f32⟩
  | .hbm, ⟨53, _⟩ => ⟨S393216x64, .f32⟩
  | .hbm, ⟨54, _⟩ => ⟨S8x49152x64, .f32⟩
  | .local _ .vmem, ⟨0, _⟩ => ⟨S8192x192, .f32⟩
  | .local _ .vmem, ⟨1, _⟩ => ⟨S8192x192, .f32⟩
  | .local _ .vmem, ⟨2, _⟩ => ⟨S192x64, .f32⟩
  | .local _ .vmem, ⟨3, _⟩ => ⟨S1x64, .f32⟩
  | .local _ .vmem, ⟨4, _⟩ => ⟨S8192x64, .f32⟩
  | .local _ .vmem, ⟨5, _⟩ => ⟨S8192x64, .f32⟩
  | _, _ => ⟨S8x49152x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x49152x64_S49152x64x8_1_2_0 : S8x49152x64.Transposes [1, 2, 0] S49152x64x8
  shapeCasts_S49152x64x8_S49152x512 : S49152x64x8.ShapeCasts S49152x512
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x512_0_1 : S393216x1.BroadcastsInDim S393216x512 (![0, 1] : Fin 2 → Fin S393216x512.rank)
  bcast_S_S49152x512 : S_.BroadcastsInDim S49152x512 (![] : Fin 0 → Fin S49152x512.rank)
  bcast_S49152x512_S1x49152x512_1_2 : S49152x512.BroadcastsInDim S1x49152x512 (![1, 2] : Fin 2 → Fin S1x49152x512.rank)
  concatenates_S1x49152x512_S1x49152x512_S1x49152x512_S3x49152x512_d0 : Shape.Concatenates [S1x49152x512, S1x49152x512, S1x49152x512] S3x49152x512 0
  shapeCasts_S3x49152x512_S3x49152x64x8 : S3x49152x512.ShapeCasts S3x49152x64x8
  transposes_S3x49152x64x8_S8x49152x64x3_3_1_2_0 : S3x49152x64x8.Transposes [3, 1, 2, 0] S8x49152x64x3
  shapeCasts_S8x49152x64x3_S393216x192 : S8x49152x64x3.ShapeCasts S393216x192
  shapeCasts_S64x3x64_S192x64 : S64x3x64.ShapeCasts S192x64
  shapeCasts_S64_S1x64 : S64.ShapeCasts S1x64
  inb_S8192x192_S8192x192_0_0 : ∀ a, (![0, 0] : Fin 2 → Nat) a + S8192x192.size a ≤ S8192x192.size a
  h_S8192x192 : 0 < S8192x192.numel
  shapeCasts_S8192x192_S8192x192 : S8192x192.ShapeCasts S8192x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  shapeCasts_S393216x64_S8x49152x64 : S393216x64.ShapeCasts S8x49152x64
  gather_S49152x512_S393216x1_S393216x512_1_0_n_n_0_1_1512_wf : GatherDims.WF S49152x512 S393216x1 S393216x512 [1] [0] [] [0] [] 1 ![1, 512]
  scatter_S49152x512_S393216x1_S393216x512_1_0_0_1_wf : ScatterDims.WF S49152x512 S393216x1 S393216x512 [1] [0] [0] 1
  dot_S8192x192_S192x64_S8192x64_1_0_0_1_n_n_wf : DotDims.WF S8192x192 S192x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x192.size a ≤ S393216x192.size a
  hwx0_0 : ∀ i : grid0.Coords, EltTy.bits .f32 = 32 ∨ (Rect.block (s := S393216x192) S8192x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S393216x64.size a
  hwx0_3 : ∀ i : grid0.Coords, EltTy.bits .f32 = 32 ∨ (Rect.block (s := S393216x64) S8192x64.size (cc0_transform_3 i) (hinb0_3 i)).WholeWords (EltTy.packing .f32)

variable [Facts₀]

def gather_S49152x512_S393216x1_S393216x512_1_0_n_n_0_1_1512 : GatherDims S49152x512 S393216x1 S393216x512 where
  offsetDims := [1]
  collapsedSliceDims := [0]
  operandBatchingDims := []
  startIndicesBatchingDims := []
  startIndexMap := [0]
  indexVectorDim := 1
  sliceSizes := ![1, 512]
  wf := gather_S49152x512_S393216x1_S393216x512_1_0_n_n_0_1_1512_wf
def scatter_S49152x512_S393216x1_S393216x512_1_0_0_1 : ScatterDims S49152x512 S393216x1 S393216x512 where
  updateWindowDims := [1]
  insertedWindowDims := [0]
  scatterDimsToOperandDims := [0]
  indexVectorDim := 1
  wf := scatter_S49152x512_S393216x1_S393216x512_1_0_0_1_wf
def dot_S8192x192_S192x64_S8192x64_1_0_0_1_n_n : DotDims S8192x192 S192x64 S8192x64 where
  lhsContracting := [1]
  rhsContracting := [0]
  lhsNonContracting := [0]
  rhsNonContracting := [1]
  lhsBatch := []
  rhsBatch := []
  wf := dot_S8192x192_S192x64_S8192x64_1_0_0_1_n_n_wf

abbrev win0_0 : Pipeline.Window sig grid0 :=
  Pipeline.Window.ofSpec (Memref.whole main_v37) S8192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x49152x64 : Shape := ⟨3, ![8, 49152, 64]⟩
abbrev S64x3x64 : Shape := ⟨3, ![64, 3, 64]⟩
abbrev S64 : Shape := ⟨1, ![64]⟩
abbrev S393216 : Shape := ⟨1, ![393216]⟩
abbrev S49152x64x8 : Shape := ⟨3, ![49152, 64, 8]⟩
abbrev S49152x512 : Shape := ⟨2, ![49152, 512]⟩
abbrev S393216x1 : Shape := ⟨2, ![393216, 1]⟩
abbrev S_ : Shape := ⟨0, ![]⟩
abbrev S393216x512 : Shape := ⟨2, ![393216, 512]⟩
abbrev S1x49152x512 : Shape := ⟨3, ![1, 49152, 512]⟩
abbrev S3x49152x512 : Shape := ⟨3, ![3, 49152, 512]⟩
abbrev S3x49152x64x8 : Shape := ⟨4, ![3, 49152, 64, 8]⟩
abbrev S8x49152x64x3 : Shape := ⟨4, ![8, 49152, 64, 3]⟩
abbrev S393216x192 : Shape := ⟨2, ![393216, 192]⟩
abbrev S192x64 : Shape := ⟨2, ![192, 64]⟩
abbrev S393216x64 : Shape := ⟨2, ![393216, 64]⟩
abbrev S1x1x64 : Shape := ⟨3, ![1, 1, 64]⟩

abbrev nBuf : Space → Nat
  | .hbm => 57
  | .vmem => 0
  | .smem => 0
  | _ => 0

abbrev bufTy : (tb : Table) → Fin (tcTables nBuf tb) → BufTy
  | .hbm, ⟨0, _⟩ => ⟨S8x49152x64, .f32⟩
  | .hbm, ⟨1, _⟩ => ⟨S64x3x64, .f32⟩
  | .hbm, ⟨2, _⟩ => ⟨S64, .f32⟩
  | .hbm, ⟨3, _⟩ => ⟨S393216, .i32⟩
  | .hbm, ⟨4, _⟩ => ⟨S393216, .i32⟩
  | .hbm, ⟨5, _⟩ => ⟨S393216, .f32⟩
  | .hbm, ⟨6, _⟩ => ⟨S49152x64x8, .f32⟩
  | .hbm, ⟨7, _⟩ => ⟨S49152x512, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x512, .f32⟩
  | .hbm, ⟨18, _⟩ => ⟨S393216x512, .f32⟩
  | .hbm, ⟨19, _⟩ => ⟨S393216x512, .f32⟩
  | .hbm, ⟨20, _⟩ => ⟨S_, .f32⟩
  | .hbm, ⟨21, _⟩ => ⟨S49152x512, .f32⟩
  | .hbm, ⟨22, _⟩ => ⟨S393216x1, .i32⟩
  | .hbm, ⟨23, _⟩ => ⟨S49152x512, .f32⟩
  | .hbm, ⟨24, _⟩ => ⟨S393216x1, .f32⟩
  | .hbm, ⟨25, _⟩ => ⟨S_, .i32⟩
  | .hbm, ⟨26, _⟩ => ⟨S393216, .i32⟩
  | .hbm, ⟨27, _⟩ => ⟨S393216, .i1⟩
  | .hbm, ⟨28, _⟩ => ⟨S_, .i32⟩
  | .hbm, ⟨29, _⟩ => ⟨S393216, .i32⟩
  | .hbm, ⟨30, _⟩ => ⟨S393216, .i32⟩
  | .hbm, ⟨31, _⟩ => ⟨S393216, .i32⟩
  | .hbm, ⟨32, _⟩ => ⟨S393216x1, .i32⟩
  | .hbm, ⟨33, _⟩ => ⟨S393216x512, .f32⟩
  | .hbm, ⟨34, _⟩ => ⟨S393216x512, .f32⟩
  | .hbm, ⟨35, _⟩ => ⟨S393216x512, .f32⟩
  | .hbm, ⟨36, _⟩ => ⟨S_, .f32⟩
  | .hbm, ⟨37, _⟩ => ⟨S49152x512, .f32⟩
  | .hbm, ⟨38, _⟩ => ⟨S393216x1, .i32⟩
  | .hbm, ⟨39, _⟩ => ⟨S49152x512, .f32⟩
  | .hbm, ⟨40, _⟩ => ⟨S_, .f32⟩
  | .hbm, ⟨41, _⟩ => ⟨S49152x512, .f32⟩
  | .hbm, ⟨42, _⟩ => ⟨S49152x512, .f32⟩
  | .hbm, ⟨43, _⟩ => ⟨S49152x512, .f32⟩
  | .hbm, ⟨44, _⟩ => ⟨S1x49152x512, .f32⟩
  | .hbm, ⟨45, _⟩ => ⟨S1x49152x512, .f32⟩
  | .hbm, ⟨46, _⟩ => ⟨S1x49152x512, .f32⟩
  | .hbm, ⟨47, _⟩ => ⟨S3x49152x512, .f32⟩
  | .hbm, ⟨48, _⟩ => ⟨S3x49152x64x8, .f32⟩
  | .hbm, ⟨49, _⟩ => ⟨S8x49152x64x3, .f32⟩
  | .hbm, ⟨50, _⟩ => ⟨S393216x192, .f32⟩
  | .hbm, ⟨51, _⟩ => ⟨S192x64, .f32⟩
  | .hbm, ⟨52, _⟩ => ⟨S393216x64, .f32⟩
  | .hbm, ⟨53, _⟩ => ⟨S8x49152x64, .f32⟩
  | .hbm, ⟨54, _⟩ => ⟨S1x1x64, .f32⟩
  | .hbm, ⟨55, _⟩ => ⟨S8x49152x64, .f32⟩
  | .hbm, ⟨56, _⟩ => ⟨S8x49152x64, .f32⟩
  | _, _ => ⟨S8x49152x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  transposes_S8x49152x64_S49152x64x8_1_2_0 : S8x49152x64.Transposes [1, 2, 0] S49152x64x8
  shapeCasts_S49152x64x8_S49152x512 : S49152x64x8.ShapeCasts S49152x512
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x512_0_1 : S393216x1.BroadcastsInDim S393216x512 (![0, 1] : Fin 2 → Fin S393216x512.rank)
  bcast_S_S49152x512 : S_.BroadcastsInDim S49152x512 (![] : Fin 0 → Fin S49152x512.rank)
  bcast_S49152x512_S1x49152x512_1_2 : S49152x512.BroadcastsInDim S1x49152x512 (![1, 2] : Fin 2 → Fin S1x49152x512.rank)
  concatenates_S1x49152x512_S1x49152x512_S1x49152x512_S3x49152x512_d0 : Shape.Concatenates [S1x49152x512, S1x49152x512, S1x49152x512] S3x49152x512 0
  shapeCasts_S3x49152x512_S3x49152x64x8 : S3x49152x512.ShapeCasts S3x49152x64x8
  transposes_S3x49152x64x8_S8x49152x64x3_3_1_2_0 : S3x49152x64x8.Transposes [3, 1, 2, 0] S8x49152x64x3
  shapeCasts_S8x49152x64x3_S393216x192 : S8x49152x64x3.ShapeCasts S393216x192
  shapeCasts_S64x3x64_S192x64 : S64x3x64.ShapeCasts S192x64
  shapeCasts_S393216x64_S8x49152x64 : S393216x64.ShapeCasts S8x49152x64
  bcast_S64_S1x1x64_2 : S64.BroadcastsInDim S1x1x64 (![2] : Fin 1 → Fin S1x1x64.rank)
  bcast_S1x1x64_S8x49152x64_0_1_2 : S1x1x64.BroadcastsInDim S8x49152x64 (![0, 1, 2] : Fin 3 → Fin S8x49152x64.rank)
  gather_S49152x512_S393216x1_S393216x512_1_0_n_n_0_1_1512_wf : GatherDims.WF S49152x512 S393216x1 S393216x512 [1] [0] [] [0] [] 1 ![1, 512]
  scatter_S49152x512_S393216x1_S393216x512_1_0_0_1_wf : ScatterDims.WF S49152x512 S393216x1 S393216x512 [1] [0] [0] 1
  dot_S393216x192_S192x64_S393216x64_1_0_0_1_n_n_wf : DotDims.WF S393216x192 S192x64 S393216x64 [1] [0] [0] [1] [] []

variable [Facts₀]

def gather_S49152x512_S393216x1_S393216x512_1_0_n_n_0_1_1512 : GatherDims S49152x512 S393216x1 S393216x512 where
  offsetDims := [1]
  collapsedSliceDims := [0]
  operandBatchingDims := []
  startIndicesBatchingDims := []
  startIndexMap := [0]
  indexVectorDim := 1
  sliceSizes := ![1, 512]
  wf := gather_S49152x512_S393216x1_S393216x512_1_0_n_n_0_1_1512_wf
def scatter_S49152x512_S393216x1_S393216x512_1_0_0_1 : ScatterDims S49152x512 S393216x1 S393216x512 where
  updateWindowDims := [1]
  insertedWindowDims := [0]
  scatterDimsToOperandDims := [0]
  indexVectorDim := 1
  wf := scatter_S49152x512_S393216x1_S393216x512_1_0_0_1_wf
def dot_S393216x192_S192x64_S393216x64_1_0_0_1_n_n : DotDims S393216x192 S192x64 S393216x64 where
  lhsContracting := [1]
  rhsContracting := [0]
  lhsNonContracting := [0]
  rhsNonContracting := [1]
  lhsBatch := []
  rhsBatch := []
  wf := dot_S393216x192_S192x64_S393216x64_1_0_0_1_n_n_wf

class Facts : Prop extends Facts₀ where

variable [Facts]
-- ==== Proof.AroundBits.lean ====
/-
  The run of the program around its one launch, and what it leaves.

  The program is forty-seven host operations (the sparse recurrence and the re-layouts that build the
  [393216, 192] matrix, the [192, 64] weights and the [1, 64] bias row), one launch over 48 grid points, and one
  host reshape of the launch's result. At grid point `t` the launch body reads block `t` of the matrix (8192 rows),
  the whole weights and the whole bias row, and stores one value — the product plus the bias row on every row —
  over the whole output block; the body also reads the output block before storing, a value it never uses.
  Stated here, at any float instance: the arrays as the launch finds them (`V`), each window's block at a point
  (`iblk`), what the body leaves in the output block (`outBlock`), the body's triple, the per-point data of the
  launch (`dats`), the run of the whole program (`run_main`) to a state where the launch's arrays hold what the
  write-backs left and every other buffer what the last reshape leaves, and from it that the six argument arrays
  end as they started (`frame`).
-/
import proofs.«114248_j41815801594275_1_alg».proof.Proof.Gen.Kernel.Launch
import proofs.«114248_j41815801594275_1_alg».proof.Proof.Gen.Kernel.Skeleton
import proofs.«114248_j41815801594275_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- What the core's buffers hold when the launch starts: the launch memory after the host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the launch touches only the launch's arrays and buffers the launch does not stage. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is none of the launch's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the
    block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or the
    block index has not moved since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or the
    block index has not moved since the last fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run to the launch theorem's post: the six argument arrays, none of them an array of the launch, end at
    what the reshape after the launch leaves of the launch-entry contents, which is what they started with. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c))⟩) h

/-! ## What the body leaves in the output block -/

/-- The whole [8192, 192] block, the whole [192, 64] weights, the whole [1, 64] row, the whole [8192, 64] block. -/
abbrev rX : Rect S8192x192 := Rect.unit (s := S8192x192) ![0, 0] S8192x192.size inb_S8192x192_S8192x192_0_0
abbrev rW : Rect S192x64 := Rect.unit (s := S192x64) ![0, 0] S192x64.size inb_S192x64_S192x64_0_0
abbrev rB : Rect S1x64 := Rect.unit (s := S1x64) ![0, 0] S1x64.size inb_S1x64_S1x64_0_0
abbrev rO : Rect S8192x64 := Rect.unit (s := S8192x64) ![0, 0] S8192x64.size inb_S8192x64_S8192x64_0_0

/-- The output block after the body, from the three input blocks: its one store, over the whole block, of the
    product of the first two plus the third on every row. -/
def outBlock (x0 : Vec F S8192x192 .f32) (x1 : Vec F S192x64 .f32) (x2 : Vec F S1x64 .f32) : Vec F S8192x64 .f32 :=
  View.canon [⟨rO, k0_pay1 (View.ld x0 rX) (View.ld x1 rW) (View.ld x2 rB)⟩]

/-- The one store covers the block. -/
theorem outCover (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

/-! ## The body's triple -/

set_option maxHeartbeats 1000000 in
/-- The body on whole staging buffers, the three inputs' at contents `x0 x1 x2` and the output's at anything, runs to
    a state holding the inputs' as they were and the output's at `outBlock x0 x1 x2`. -/
theorem sound_kernel (c : Dev nD) (E : Set ℕ) (i : grid0.Coords) (arg1 : Memref sig .tc .vmem S8192x192 .f32) (harg1 : arg1.IsWhole) (arg2 : Memref sig .tc .vmem S192x64 .f32) (harg2 : arg2.IsWhole) (arg3 : Memref sig .tc .vmem S1x64 .f32) (harg3 : arg3.IsWhole) (arg4 : Memref sig .tc .vmem S8192x64 .f32) (harg4 : arg4.IsWhole)
    (x0 : Vec F S8192x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__gemm_bias_kernel i arg1 harg1 arg2 harg2 arg3 harg3 arg4 harg4) K := by
  simp only [cc0__gemm_bias_kernel_eq_skeleton]; unfold cc0__gemm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The launch's per-point data -/

/-- On core `c`: the arrays as the launch finds them; after the body at point `t` each input's buffer at its block
    and the output's at `outBlock` of the three input blocks; nothing else of the core touched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the rest of the
    core's state passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and at the end each
    array of the launch holds what the write-backs left and every other unscoped buffer what the reshape after the
    launch leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The six argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Around

end
-- ==== Proof.AroundIdeal.lean ====
/-
  The run of the program around its one launch, and what it leaves.

  The program is forty-seven host operations (the sparse recurrence and the re-layouts that build the
  [393216, 192] matrix, the [192, 64] weights and the [1, 64] bias row), one launch over 48 grid points, and one
  host reshape of the launch's result. At grid point `t` the launch body reads block `t` of the matrix (8192 rows),
  the whole weights and the whole bias row, and stores one value — the product plus the bias row on every row —
  over the whole output block; the body also reads the output block before storing, a value it never uses.
  Stated here, at any float instance: the arrays as the launch finds them (`V`), each window's block at a point
  (`iblk`), what the body leaves in the output block (`outBlock`), the body's triple, the per-point data of the
  launch (`dats`), the run of the whole program (`run_main`) to a state where the launch's arrays hold what the
  write-backs left and every other buffer what the last reshape leaves, and from it that the six argument arrays
  end as they started (`frame`).
-/
import proofs.«114248_j41815801594275_1_alg».proof.Proof.Gen.KernelIdeal.Launch
import proofs.«114248_j41815801594275_1_alg».proof.Proof.Gen.KernelIdeal.Skeleton
import proofs.«114248_j41815801594275_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- What the core's buffers hold when the launch starts: the launch memory after the host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the launch touches only the launch's arrays and buffers the launch does not stage. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is none of the launch's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Neither does the reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the
    block index has not moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or the
    block index has not moved since the last fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or the
    block index has not moved since the last fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays at the end -/

/-- From a run to the launch theorem's post: the six argument arrays, none of them an array of the launch, end at
    what the reshape after the launch leaves of the launch-entry contents, which is what they started with. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c))⟩) h

/-! ## What the body leaves in the output block -/

/-- The whole [8192, 192] block, the whole [192, 64] weights, the whole [1, 64] row, the whole [8192, 64] block. -/
abbrev rX : Rect S8192x192 := Rect.unit (s := S8192x192) ![0, 0] S8192x192.size inb_S8192x192_S8192x192_0_0
abbrev rW : Rect S192x64 := Rect.unit (s := S192x64) ![0, 0] S192x64.size inb_S192x64_S192x64_0_0
abbrev rB : Rect S1x64 := Rect.unit (s := S1x64) ![0, 0] S1x64.size inb_S1x64_S1x64_0_0
abbrev rO : Rect S8192x64 := Rect.unit (s := S8192x64) ![0, 0] S8192x64.size inb_S8192x64_S8192x64_0_0

/-- The output block after the body, from the three input blocks: its one store, over the whole block, of the
    product of the first two plus the third on every row. -/
def outBlock (x0 : Vec F S8192x192 .f32) (x1 : Vec F S192x64 .f32) (x2 : Vec F S1x64 .f32) : Vec F S8192x64 .f32 :=
  View.canon [⟨rO, k0_pay1 (View.ld x0 rX) (View.ld x1 rW) (View.ld x2 rB)⟩]

/-- The one store covers the block. -/
theorem outCover (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

/-! ## The body's triple -/

set_option maxHeartbeats 1000000 in
/-- The body on whole staging buffers, the three inputs' at contents `x0 x1 x2` and the output's at anything, runs to
    a state holding the inputs' as they were and the output's at `outBlock x0 x1 x2`. -/
theorem sound_kernel (c : Dev nD) (E : Set ℕ) (i : grid0.Coords) (arg1 : Memref sig .tc .vmem S8192x192 .f32) (harg1 : arg1.IsWhole) (arg2 : Memref sig .tc .vmem S192x64 .f32) (harg2 : arg2.IsWhole) (arg3 : Memref sig .tc .vmem S1x64 .f32) (harg3 : arg3.IsWhole) (arg4 : Memref sig .tc .vmem S8192x64 .f32) (harg4 : arg4.IsWhole)
    (x0 : Vec F S8192x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__gemm_bias_kernel i arg1 harg1 arg2 harg2 arg3 harg3 arg4 harg4) K := by
  simp only [cc0__gemm_bias_kernel_eq_skeleton]; unfold cc0__gemm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The launch's per-point data -/

/-- On core `c`: the arrays as the launch finds them; after the body at point `t` each input's buffer at its block
    and the output's at `outBlock` of the three input blocks; nothing else of the core touched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the rest of the
    core's state passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and at the end each
    array of the launch holds what the write-backs left and every other unscoped buffer what the reshape after the
    launch leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The six argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Around

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.BlockValue.lean ====
/-
  The launch body's stored value, read at one entry.

  At the ideal instance the rounding to the narrower format on the way into the matrix unit is the identity, the
  matrix unit's product into the zero accumulator is the plain sum of products, and the [1, 64] bias row is broadcast
  over the 8192 rows: at (r, o) the stored value is Σ_k x(r, k) · w(k, o) + b(0, o).
-/
import proofs.«114248_j41815801594275_1_alg».proof.Proof.Gen.KernelIdeal.Skeleton
import proofs.«114248_j41815801594275_1_alg».proof.Proof.LibPlainDot
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen
open Idealize.ShloMosaic Idealize.ShloMosaic.ValueIdx

/-- The stored value at (r, o). -/
theorem pay_apply (x0 : FVec Ideal S8192x192 .f32) (x1 : FVec Ideal S192x64 .f32) (x2 : FVec Ideal S1x64 .f32)
    (r : Fin 8192) (o : Fin 64) :
    k0_pay1 (F := Ideal) x0 x1 x2 (ix2 r o) = (∑ k : Fin 192, x0 (ix2 r k) * x1 (ix2 k o)) + x2 (ix2 (0 : Fin 1) o) := by
  unfold k0_pay1
  rw [addf_apply, shapeCast_self, shapeCast_self, shapeCast_self]
  refine congrArg₂ (· + ·) ?_ ?_
  · exact Cert.LibPlainDot.matmul_zero_apply dot_S8192x192_S192x64_S8192x64_1_0_0_1_n_n rfl rfl rfl rfl rfl rfl none _ _ r o
  · exact broadcastTo_1b_ab_apply _ _ r o

end Cert.KernelIdeal.BlockValue

end
-- ==== Proof.GemmSpec.lean ====
/-
  The function both programs compute.

  With X the [393216, 192] matrix the shared host operations build, W the [192, 64] weights and b the 64 bias
  entries, the result at (batch i, vertex v, output channel o) is the row (i · 49152 + v) of X against column o of
  W, plus b(o):  Σ_k X(i·49152 + v, k) · W(k, o) + b(o),  a sum of 192 products on the extended reals.
  Both sides are this same sum, term for term, so no law of the extended reals is needed beyond reading each side.
-/
import Idealize.ShloMosaic.PureOps.Ideal
import Idealize.ShloMosaic.Lib.ValueIdx

noncomputable section

namespace Cert.Gemm

open Idealize.ShloMosaic Idealize.ShloMosaic.ValueIdx

/-- Row p of X against column o of W, plus b(o). -/
def entry (X : (⟨2, ![393216, 192]⟩ : Shape).Idx → EReal) (W : (⟨2, ![192, 64]⟩ : Shape).Idx → EReal)
    (b : (⟨1, ![64]⟩ : Shape).Idx → EReal) (p : Fin 393216) (o : Fin 64) : EReal :=
  (∑ k : Fin 192, X (ix2 p k) * W (ix2 k o)) + b (ix1 o)

/-- The flat [393216, 64] result. -/
def flat (X : (⟨2, ![393216, 192]⟩ : Shape).Idx → EReal) (W : (⟨2, ![192, 64]⟩ : Shape).Idx → EReal)
    (b : (⟨1, ![64]⟩ : Shape).Idx → EReal) : (⟨2, ![393216, 64]⟩ : Shape).Idx → EReal :=
  fun j => entry X W b ⟨(j 0).val, (j 0).isLt⟩ ⟨(j 1).val, (j 1).isLt⟩

/-- The row of the flat result that holds (batch i, vertex v). -/
def row (i : (⟨3, ![8, 49152, 64]⟩ : Shape).Idx) : Fin 393216 :=
  ⟨(i 0).val * 49152 + (i 1).val, by
    have h0 : (i 0).val < 8 := (i 0).isLt
    have h1 : (i 1).val < 49152 := (i 1).isLt
    omega⟩

/-- The [8, 49152, 64] result. -/
def G (X : (⟨2, ![393216, 192]⟩ : Shape).Idx → EReal) (W : (⟨2, ![192, 64]⟩ : Shape).Idx → EReal)
    (b : (⟨1, ![64]⟩ : Shape).Idx → EReal) : (⟨3, ![8, 49152, 64]⟩ : Shape).Idx → EReal :=
  fun i => entry X W b (row i) ⟨(i 2).val, (i 2).isLt⟩

end Cert.Gemm

end
-- ==== Proof.KernelFinal.lean ====
/-
  The launch's output array after the run, as one function.

  Grid point t stages rows t·8192 … t·8192 + 8191 of the [393216, 192] matrix, the whole [192, 64] weights and the
  whole [1, 64] bias row, and writes back rows t·8192 … t·8192 + 8191 of the [393216, 64] output. So what point t
  writes back is block t of the one function  (p, o) ↦ Σ_k X(p, k) · W(k, o) + B(0, o)  of the arrays as the launch
  finds them, and the 48 blocks cover the output (row p lies in block p / 8192): the array ends as that function.
-/
import proofs.«114248_j41815801594275_1_alg».proof.Proof.AroundIdeal
import proofs.«114248_j41815801594275_1_alg».proof.Proof.BlockValue
import proofs.«114248_j41815801594275_1_alg».proof.Proof.GemmSpec
import Idealize.ShloMosaic.Lib.Pipeline.Value

noncomputable section

namespace Cert.KernelIdeal.Final

open Cert.KernelIdeal Cert.KernelIdeal.Gen Cert.KernelIdeal.Around Cert.KernelIdeal.BlockValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The 64 entries of a [1, 64] row. -/
def biasOf (B : S1x64.Idx → EReal) : (⟨1, ![64]⟩ : Shape).Idx → EReal :=
  fun j => B (ix2 (0 : Fin 1) (⟨(j 0).val, (j 0).isLt⟩ : Fin 64))

/-- The block indices over the grid: the matrix's and the output's row block is the point's number, every column
    block is the first, and the weights and the bias row are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The stored value at a block entry is the common function at an array entry, once each input block's entries
    are the arrays' entries on the matching rows and columns. -/
theorem block_entry (x0 : FVec Ideal S8192x192 .f32) (x1 : FVec Ideal S192x64 .f32) (x2 : FVec Ideal S1x64 .f32)
    (X : S393216x192.Idx → EReal) (W : S192x64.Idx → EReal) (B : S1x64.Idx → EReal)
    (y : S8192x64.Idx) (i : S393216x64.Idx)
    (h0 : ∀ k : Fin 192, x0 (ix2 (⟨(y 0).val, (y 0).isLt⟩ : Fin 8192) k) = X (ix2 (⟨(i 0).val, (i 0).isLt⟩ : Fin 393216) k))
    (h1 : ∀ k : Fin 192, x1 (ix2 k (⟨(y 1).val, (y 1).isLt⟩ : Fin 64)) = W (ix2 k (⟨(i 1).val, (i 1).isLt⟩ : Fin 64)))
    (h2 : x2 (ix2 (0 : Fin 1) (⟨(y 1).val, (y 1).isLt⟩ : Fin 64)) = B (ix2 (0 : Fin 1) (⟨(i 1).val, (i 1).isLt⟩ : Fin 64))) :
    k0_pay1 (F := Ideal) x0 x1 x2 y = Cert.Gemm.flat X W (biasOf B) i := by
  obtain ⟨r, o, rfl⟩ : ∃ (r : Fin 8192) (o : Fin 64), y = ix2 r o := ⟨y 0, y 1, eq_ix2 y⟩
  rw [pay_apply]
  unfold Cert.Gemm.flat Cert.Gemm.entry biasOf
  exact congrArg₂ (· + ·) (Finset.sum_congr rfl fun k _ => congrArg₂ (· * ·) (h0 k) (h1 k)) h2

/-- Block t of the three inputs goes to block t of the common function, whatever the three arrays are. -/
theorem blockwise (A0 : S393216x192.Idx → EReal) (A1 : S192x64.Idx → EReal) (A2 : S1x64.Idx → EReal) (t : Fin cfg0.N) :
    (cfg0.win 3).cut (grid0.coords t)
        (outBlock (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (Cert.Gemm.flat A0 A1 (biasOf A2)) := by
  unfold outBlock
  rw [View.canon_unit_zero hz]
  simp only [View.ld_unit_zero (S := S8192x192) hz, View.ld_unit_zero (S := S192x64) hz, View.ld_unit_zero (S := S1x64) hz]
  obtain ⟨e00, e01, e10, e11, e20, e21, e30, e31⟩ := idx_facts t
  funext j
  show k0_pay1 (F := Ideal) _ _ _ ((win0 3).xinj (grid0.coords t) j) = Cert.Gemm.flat A0 A1 (biasOf A2) (((cfg0.win 3).blk t).view.emb j)
  have hj0 : (j 0).val < 8192 := (j 0).isLt
  have hj1 : (j 1).val < 64 := (j 1).isLt
  refine block_entry _ _ _ A0 A1 A2 _ _ (fun k => ?_) (fun k => ?_) ?_
  · show A0 (((cfg0.win 0).blk t).view.emb (ix2 (⟨(j 0).val, hj0⟩ : Fin 8192) k)) = _
    refine congrArg A0 (funext fun a => Fin.ext ?_)
    match a with
    | ⟨0, _⟩ =>
      show win0_0.index t (0 : Fin 2) * 8192 + 1 * (j 0).val = win0_3.index t (0 : Fin 2) * 8192 + 1 * (j 0).val
      omega
    | ⟨1, _⟩ =>
      show win0_0.index t (1 : Fin 2) * 192 + 1 * k.val = k.val
      omega
  · show A1 (((cfg0.win 1).blk t).view.emb (ix2 k (⟨(j 1).val, hj1⟩ : Fin 64))) = _
    refine congrArg A1 (funext fun a => Fin.ext ?_)
    match a with
    | ⟨0, _⟩ =>
      show win0_1.index t (0 : Fin 2) * 192 + 1 * k.val = k.val
      omega
    | ⟨1, _⟩ =>
      show win0_1.index t (1 : Fin 2) * 64 + 1 * (j 1).val = win0_3.index t (1 : Fin 2) * 64 + 1 * (j 1).val
      omega
  · show A2 (((cfg0.win 2).blk t).view.emb (ix2 (0 : Fin 1) (⟨(j 1).val, hj1⟩ : Fin 64))) = _
    refine congrArg A2 (funext fun a => Fin.ext ?_)
    match a with
    | ⟨0, _⟩ =>
      show win0_2.index t (0 : Fin 2) * 1 + 1 * 0 = 0
      omega
    | ⟨1, _⟩ =>
      show win0_2.index t (1 : Fin 2) * 64 + 1 * (j 1).val = win0_3.index t (1 : Fin 2) * 64 + 1 * (j 1).val
      omega

/-- What grid point t writes back is block t of the common function of the arrays as the launch finds them. -/
theorem flushed_eq (c : Dev nD) (t : Fin cfg0.N) :
    (dats m 0 c).flushed 3 t = ((cfg0.win 3).blk t).view.read (Elt Ideal)
      (Cert.Gemm.flat (V m c (Pipeline.arrRef spec0 0)) (V m c (Pipeline.arrRef spec0 1)) (biasOf (V m c (Pipeline.arrRef spec0 2)))) := by
  show (cfg0.win 3).cut (grid0.coords t) ((dats m 0 c).after 3 t) = _
  rw [after3]
  unfold iblk
  exact blockwise (V m c (Pipeline.arrRef spec0 0)) (V m c (Pipeline.arrRef spec0 1)) (V m c (Pipeline.arrRef spec0 2)) t

/-- An index is in point t's block iff each coordinate is in the block's range on its axis. -/
theorem mem_blk (t : Fin cfg0.N) (i : S393216x64.Idx) :
    i ∈ ((cfg0.win 3).blk t).view.set ↔ ∀ a : Fin 2, win0_3.index t a * S8192x64.size a ≤ (i a).val ∧ (i a).val < win0_3.index t a * S8192x64.size a + S8192x64.size a := by
  show i ∈ ((View.whole main_v40).slice (win0_3.rect t)).set ↔ _
  rw [View.set_slice_whole, Rect.mem_set_unit]
  exact Iff.rfl

/-- Row p of the output lies in the block of point p / 8192. -/
theorem cover (i : S393216x64.Idx) : ∃ t : Fin cfg0.N, (cfg0.win 3).flush t = true ∧ i ∈ ((cfg0.win 3).blk t).view.set := by
  have hi0 : (i 0).val < 393216 := (i 0).isLt
  have hi1 : (i 1).val < 64 := (i 1).isLt
  have hlt : (i 0).val / 8192 < cfg0.N := by
    show (i 0).val / 8192 < grid0.N
    rw [N_0]; omega
  obtain ⟨-, -, -, -, -, -, e30, e31⟩ := idx_facts ⟨(i 0).val / 8192, hlt⟩
  have e30' : win0_3.index ⟨(i 0).val / 8192, hlt⟩ (0 : Fin 2) = (i 0).val / 8192 := e30
  refine ⟨⟨(i 0).val / 8192, hlt⟩, flush0_3 _, ?_⟩
  rw [mem_blk]
  intro a
  match a with
  | ⟨0, _⟩ =>
    show win0_3.index ⟨(i 0).val / 8192, hlt⟩ (0 : Fin 2) * 8192 ≤ (i 0).val ∧ (i 0).val < win0_3.index ⟨(i 0).val / 8192, hlt⟩ (0 : Fin 2) * 8192 + 8192
    omega
  | ⟨1, _⟩ =>
    show win0_3.index ⟨(i 0).val / 8192, hlt⟩ (1 : Fin 2) * 64 ≤ (i 1).val ∧ (i 1).val < win0_3.index ⟨(i 0).val / 8192, hlt⟩ (1 : Fin 2) * 64 + 64
    omega

/-- The output array after the run is the common function of the arrays as the launch finds them. -/
theorem final (c : Dev nD) : (dats m 0 c).arrAt 3 cfg0.N
    = Cert.Gemm.flat (V m c (Pipeline.arrRef spec0 0)) (V m c (Pipeline.arrRef spec0 1)) (biasOf (V m c (Pipeline.arrRef spec0 2))) :=
  (dats m 0 c).arrAt_eq_of_cover 3 _ (fun t _ => flushed_eq m c t) cover

end Cert.KernelIdeal.Final

end
-- ==== Proof.KernelResult.lean ====
/-
  The idealized program's result, as the common function of its arguments.

  The launch finds the [393216, 192] matrix at what the forty-odd host operations before it computed from
  arguments 0, 3, 4, 5 — the same operations, in the same order, as the reference's: the three [49152, 512] terms
  of the recurrence, joined along a new first axis, then re-laid twice — the weights at argument 1 reshaped to
  [192, 64] and the bias row at argument 2 reshaped to [1, 64]. The program's result is the launch's output array
  reshaped from [393216, 64] to [8, 49152, 64]: entry (i, v, o) is row i · 49152 + v, column o.
-/
import proofs.«114248_j41815801594275_1_alg».proof.Proof.KernelFinal
import proofs.«114248_j41815801594275_1_alg».proof.Proof.Gen.ReferenceIdeal.Read
import Idealize.ShloMosaic.Lib.StableHlo.Run
import Idealize.ShloMosaic.Lib.ValueLayout

noncomputable section

namespace Cert.KernelIdeal.Result

open Cert.KernelIdeal Cert.KernelIdeal.Gen Cert.KernelIdeal.Around Cert.KernelIdeal.Final
open Idealize.ShloMosaic Idealize.ShloMosaic.TcCoe Idealize.ShloMosaic.ValueIdx Idealize.SL.Sem
open Idealize.ShloMosaic.StableHlo
open Idealize.ShloMosaic.Pipeline (Dat)

/-- A host operation of three operands (a join of three arrays) reads each operand at its own buffer. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Running one list of host operations after another. -/
theorem after_append {τ : Topo} {sig : RefSig} {Val : EltTy → Type} (l1 l2 : List (HloOp τ sig Val)) (V : Valuation τ sig Val) :
    after (l1 ++ l2) V = after l2 (after l1 V) := by
  induction l1 generalizing V with
  | nil => rfl
  | cons op l ih => simp only [List.cons_append, after_cons, ih]

variable (m : (ℓ : Loc nD τ sig) → Buf (Elt Ideal) ℓ)

/-- The six arguments as the program is launched with them. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-- The buffers' contents after the first forty-one host operations: everything before the join. -/
abbrev beforeJoin (c : Dev nD) : Valuation τ sig (Elt Ideal) := after ((hostOps0 (F := Ideal)).take 41) (fun b => m (c, b))

set_option maxRecDepth 8192 in
set_option maxHeartbeats 2000000 in
/-- The first joined term: the re-laid input. -/
theorem term0 (c : Dev nD) : (beforeJoin m c (Proc.devRef .tc main_v31) : S1x49152x512.Idx → EReal)
    = Cert.ReferenceIdeal.Read.val_main_v31 (F := Ideal) (a0 m c) := by
  simp only [beforeJoin, hostOps0, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']
  rfl

set_option maxRecDepth 8192 in
set_option maxHeartbeats 2000000 in
/-- The second: the sparse operator applied once. -/
theorem term1 (c : Dev nD) : (beforeJoin m c (Proc.devRef .tc main_v32) : S1x49152x512.Idx → EReal)
    = Cert.ReferenceIdeal.Read.val_main_v32 (F := Ideal) (a0 m c) (a3 m c) (a4 m c) (a5 m c) := by
  simp only [beforeJoin, hostOps0, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']
  rfl

set_option maxRecDepth 8192 in
set_option maxHeartbeats 2000000 in
/-- The third: twice the operator applied to the second, minus the first. -/
theorem term2 (c : Dev nD) : (beforeJoin m c (Proc.devRef .tc main_v33) : S1x49152x512.Idx → EReal)
    = Cert.ReferenceIdeal.Read.val_main_v33 (F := Ideal) (a0 m c) (a3 m c) (a4 m c) (a5 m c) := by
  simp only [beforeJoin, hostOps0, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']
  rfl

/-- The last six host operations before the launch, run from any buffer contents `W` whose three terms are
    `t0 t1 t2`: the matrix is the three terms joined along a new first axis, reshaped to [3, 49152, 64, 8], its
    axes permuted to [8, 49152, 64, 3], and reshaped to [393216, 192]. -/
theorem joined (W : Valuation τ sig (Elt Ideal)) (t0 t1 t2 : S1x49152x512.Idx → EReal)
    (h0 : (W (Proc.devRef .tc main_v31) : S1x49152x512.Idx → EReal) = t0)
    (h1 : (W (Proc.devRef .tc main_v32) : S1x49152x512.Idx → EReal) = t1)
    (h2 : (W (Proc.devRef .tc main_v33) : S1x49152x512.Idx → EReal) = t2) :
    (after ((hostOps0 (F := Ideal)).drop 41) W (Proc.devRef .tc main_v37) : S393216x192.Idx → EReal)
      = shapeCast S393216x192 (transpose S8x49152x64x3 [3, 1, 2, 0] (shapeCast S3x49152x64x8
          (concatenate S3x49152x512 0 [⟨S1x49152x512, t0⟩, ⟨S1x49152x512, t1⟩, ⟨S1x49152x512, t2⟩]
            concatenates_S1x49152x512_S1x49152x512_S1x49152x512_S3x49152x512_d0)
          shapeCasts_S3x49152x512_S3x49152x64x8) transposes_S3x49152x64x8_S8x49152x64x3_3_1_2_0)
          shapeCasts_S8x49152x64x3_S393216x192 := by
  subst h0 h1 h2
  simp only [hostOps0, List.drop_succ_cons, List.drop_zero]
  simp (disch := decide) only [after_cons, after_nil,
      nullary_result', unary_result', binary_result', ternary_result', reshape_result', nary3_result',
      nullary_result_ne', unary_result_ne', binary_result_ne', ternary_result_ne', reshape_result_ne', nary_result_ne']
  rfl

/-- The host operations before the launch are the first forty-one, then the last six. -/
theorem split (c : Dev nD) : after (hostOps0 (F := Ideal)) (fun b => m (c, b))
    = after ((hostOps0 (F := Ideal)).drop 41) (beforeJoin m c) := by
  rw [beforeJoin, ← after_append, List.take_append_drop]

set_option maxRecDepth 8192 in
/-- The matrix as the launch finds it is the shared host operations' value of arguments 0, 3, 4, 5. -/
theorem V_matrix (c : Dev nD) : (V m c (Pipeline.arrRef spec0 0) : S393216x192.Idx → EReal)
    = Cert.ReferenceIdeal.Read.val_main_v37 (F := Ideal) (a0 m c) (a3 m c) (a4 m c) (a5 m c) := by
  show after (hostOps0 (F := Ideal)) (fun b => m (c, b)) (Proc.devRef .tc main_v37) = _
  rw [split, joined (beforeJoin m c) _ _ _ (term0 m c) (term1 m c) (term2 m c)]
  rfl

set_option maxRecDepth 8192 in
set_option maxHeartbeats 2000000 in
/-- The weights as the launch finds them: argument 1 reshaped to [192, 64]. -/
theorem V_weights (c : Dev nD) : (V m c (Pipeline.arrRef spec0 1) : S192x64.Idx → EReal)
    = Cert.ReferenceIdeal.Read.val_main_v38 (F := Ideal) (a1 m c) := by
  show after (hostOps0 (F := Ideal)) (fun b => m (c, b)) (Proc.devRef .tc main_v38) = _
  simp only [hostOps0]
  simp (disch := decide) only [after_cons, after_nil,
      nullary_result', unary_result', binary_result', ternary_result', reshape_result', nary3_result',
      nullary_result_ne', unary_result_ne', binary_result_ne', ternary_result_ne', reshape_result_ne', nary_result_ne']
  rfl

set_option maxRecDepth 8192 in
set_option maxHeartbeats 2000000 in
/-- The bias row as the launch finds it: argument 2 reshaped to [1, 64]. -/
theorem V_bias (c : Dev nD) : (V m c (Pipeline.arrRef spec0 2) : S1x64.Idx → EReal)
    = shapeCast S1x64 (a2 m c) shapeCasts_S64_S1x64 := by
  show after (hostOps0 (F := Ideal)) (fun b => m (c, b)) (Proc.devRef .tc main_v39) = _
  simp only [hostOps0]
  simp (disch := decide) only [after_cons, after_nil,
      nullary_result', unary_result', binary_result', ternary_result', reshape_result', nary3_result',
      nullary_result_ne', unary_result_ne', binary_result_ne', ternary_result_ne', reshape_result_ne', nary_result_ne']
  rfl

/-- The 64 entries of the reshaped bias row are the bias. -/
theorem biasOf_row (b : S64.Idx → EReal) : biasOf (shapeCast S1x64 b shapeCasts_S64_S1x64) = b := by
  funext j
  obtain ⟨o, rfl⟩ : ∃ o : Fin 64, j = ix1 o := ⟨j 0, eq_ix1 j⟩
  exact shapeCast_a_1a_apply b shapeCasts_S64_S1x64 (0 : Fin 1) o

/-- The program's result, from the arguments. -/
def resultOf (c : Dev nD) : Buf (Elt Ideal) ((c.tc : Thread nD τ).loc main_v41) :=
  Cert.Gemm.G (Cert.ReferenceIdeal.Read.val_main_v37 (F := Ideal) (a0 m c) (a3 m c) (a4 m c) (a5 m c))
    (Cert.ReferenceIdeal.Read.val_main_v38 (F := Ideal) (a1 m c)) (a2 m c)

/-- What the reshape after the launch leaves in the result buffer. -/
theorem result_eq (c : Dev nD) :
    Pipeline.afterTail₀ cfgs (dats m) 0 (V0 m) [hostOps1] c main_v41 = resultOf m c := by
  have hw : Pipeline.withArrays (cfgs 0).spec c (V0 m c) (fun w => (dats m 0 c).arrAt w (cfgs 0).N) (Proc.devRef .tc main_v40)
      = Cert.Gemm.flat (Cert.ReferenceIdeal.Read.val_main_v37 (F := Ideal) (a0 m c) (a3 m c) (a4 m c) (a5 m c))
          (Cert.ReferenceIdeal.Read.val_main_v38 (F := Ideal) (a1 m c)) (a2 m c) := by
    refine ((Pipeline.withArrays_arr spec0 launch0.win.arr_inj c _ _ 3).trans (final m c)).trans ?_
    rw [V_matrix, V_weights, V_bias, biasOf_row]
  unfold Pipeline.afterTail₀
  show after hostOps1 _ (Proc.devRef .tc main_v41) = _
  simp (disch := decide) only [after_cons, after_nil,
      nullary_result', unary_result', binary_result', ternary_result', reshape_result', nary3_result',
      nullary_result_ne', unary_result_ne', binary_result_ne', ternary_result_ne', reshape_result_ne', nary_result_ne']
  rw [hw]
  funext i
  exact (shapeCast_apply (s := S393216x64) (t := S8x49152x64) _ shapeCasts_S393216x64_S8x49152x64 i
    (ix2 (Cert.Gemm.row i) (⟨(i 2).val, (i 2).isLt⟩ : Fin 64)) (by
      rewrite [Shape.rowMajor_val_two, Shape.rowMajor_val_three]
      rfl)).trans rfl

/-- From any memory with zero counters every weakly fair execution of the idealized program terminates with the
    result at the common function of the arguments and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v41) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (((h c).2 main_v41 (Pipeline.mem_restRefs_of main_v41 (by decide) (by decide))).trans (result_eq m c)),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c))⟩)
    (run_main m ρ)

end Cert.KernelIdeal.Result

end
-- ==== Proof.RefIsG.lean ====
/-
  The reference's result is the common function.

  The reference multiplies the shared [393216, 192] matrix by the [192, 64] weights as one host contraction, reshapes
  the [393216, 64] product to [8, 49152, 64] — entry (i, v, o) is entry (i · 49152 + v, o) of the product, since
  o < 64 — and adds the bias broadcast along the last axis.  Entry by entry that is Σ_k X(i·49152 + v, k) · W(k, o) + b(o).
-/
import proofs.«114248_j41815801594275_1_alg».proof.Proof.Gen.ReferenceIdeal.Read
import proofs.«114248_j41815801594275_1_alg».proof.Proof.GemmSpec

noncomputable section

namespace Cert.ReferenceIdeal.RefValue

open Cert.ReferenceIdeal Cert.ReferenceIdeal.Read
open Idealize.ShloMosaic Idealize.ShloMosaic.ValueIdx

/-- The reference's last stage, as a function of the six arguments, is `G` of the shared matrix, the reshaped
    weights and the bias. -/
theorem result_eq (x0 : (⟨S8x49152x64, .f32⟩ : BufTy).Contents (Elt Ideal)) (x1 : (⟨S64x3x64, .f32⟩ : BufTy).Contents (Elt Ideal))
    (x2 : (⟨S64, .f32⟩ : BufTy).Contents (Elt Ideal)) (x3 x4 : (⟨S393216, .i32⟩ : BufTy).Contents (Elt Ideal))
    (x5 : (⟨S393216, .f32⟩ : BufTy).Contents (Elt Ideal)) :
    val_main_v43 (F := Ideal) x0 x1 x2 x3 x4 x5
      = Cert.Gemm.G (val_main_v37 (F := Ideal) x0 x3 x4 x5) (val_main_v38 (F := Ideal) x1) x2 := by
  funext i
  rw [val_main_v43_apply, val_main_v40_apply, val_main_v39_apply, val_main_v42_apply, val_main_v41_apply]
  generalize val_main_v37 (F := Ideal) x0 x3 x4 x5 = X
  generalize val_main_v38 (F := Ideal) x1 = W
  unfold Cert.Gemm.G Cert.Gemm.entry
  have h2 : (i 2).val < 64 := (i 2).isLt
  have el : ∀ k : Fin 192, lidx_main_v39 (idx_main_v40 i) k = ix2 (Cert.Gemm.row i) k := fun k => funext fun a => Fin.ext (by
    match a with
    | ⟨0, _⟩ =>
      show (((i 0).val * 49152 + (i 1).val) * 64 + (i 2).val) / 64 = (i 0).val * 49152 + (i 1).val
      omega
    | ⟨1, _⟩ => rfl)
  have er : ∀ k : Fin 192, ridx_main_v39 (idx_main_v40 i) k = ix2 k (⟨(i 2).val, (i 2).isLt⟩ : Fin 64) := fun k => funext fun a => Fin.ext (by
    match a with
    | ⟨0, _⟩ => rfl
    | ⟨1, _⟩ =>
      show (((i 0).val * 49152 + (i 1).val) * 64 + (i 2).val) % 64 = (i 2).val
      omega)
  have eb : idx_main_v41 (idx_main_v42 i) = ix1 (⟨(i 2).val, (i 2).isLt⟩ : Fin 64) := funext fun a => Fin.ext (by
    match a with
    | ⟨0, _⟩ => rfl)
  simp only [el, er, eb]
  rfl

end Cert.ReferenceIdeal.RefValue

end
-- ==== Proof.lean ====
/-
  A graph convolution's dense stage: the [393216, 192] matrix built by the sparse recurrence times the [192, 64]
  weights, plus the bias, once as a gridded launch (48 blocks of 8192 rows, the bias added inside the launch, the
  result reshaped afterwards) and once as one host contraction (reshaped, the bias added afterwards).

  On the extended reals both are  out(i, v, o) = Σ_k X(i·49152 + v, k) · W(k, o) + b(o)  with the same X — the two
  programs build it by the same host operations — so the two results are equal term for term: the rounding to the
  narrower format on the way into the matrix unit is the identity there, the matrix unit's product into the zero
  accumulator and the host contraction are the same sum of 192 products, and adding the bias before or after the
  reshape reads the same entry. No input needs to be finite for this.
  The three frames are the programs' runs with the result dropped; the idealization rewrote nothing.
-/
import proofs.«114248_j41815801594275_1_alg».proof.Defs
import proofs.«114248_j41815801594275_1_alg».proof.Proof.Gen.Kernel
import proofs.«114248_j41815801594275_1_alg».proof.Proof.Gen.KernelIdeal
import proofs.«114248_j41815801594275_1_alg».proof.Proof.Gen.ReferenceIdeal
import proofs.«114248_j41815801594275_1_alg».proof.Proof.Gen.Pre_finite_inputs
import proofs.«114248_j41815801594275_1_alg».proof.Proof.Gen.ReferenceIdeal.Run
import proofs.«114248_j41815801594275_1_alg».proof.Proof.Gen.ReferenceIdeal.Read
import proofs.«114248_j41815801594275_1_alg».proof.Proof.AroundBits
import proofs.«114248_j41815801594275_1_alg».proof.Proof.AroundIdeal
import proofs.«114248_j41815801594275_1_alg».proof.Proof.KernelResult
import proofs.«114248_j41815801594275_1_alg».proof.Proof.RefIsG

noncomputable section

namespace Cert.Proof

open Idealize.ShloMosaic Idealize.SL.Sem

theorem frame_p : Cert.frame_Kernel := fun m ρ _ => Cert.Kernel.Around.frame m ρ

theorem frame_pi : Cert.frame_KernelIdeal := fun m ρ _ => Cert.KernelIdeal.Around.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the common function of arguments that agree. -/
theorem algebraic : Cert.algebraic_KernelIdeal_ReferenceIdeal := by
  intro m ρ m' ρ' _ hagree
  refine ⟨fun c => Cert.KernelIdeal.Result.resultOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
